-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x2048 : Shape := ⟨3, ![16, 2048, 2048]⟩
abbrev S10x2048 : Shape := ⟨2, ![10, 2048]⟩
abbrev S_ : Shape := ⟨0, ![]⟩

class Facts : Prop where
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel
  bcast_S_S10x2048 : S_.BroadcastsInDim S10x2048 (![] : Fin 0 → Fin S10x2048.rank)
  reducesTo_S10x2048_S_d0_1 : S10x2048.ReducesTo [0, 1] S_

variable [Facts]

def fn {F : FTy → Type} [FloatOps F] (main_arg0 : FVec F S16x2048x2048 .f32) (main_arg1 : FVec F S10x2048 .f32) : IVec S_ 1 :=
  let main_v0 : FVec F S16x2048x2048 .f32 := Host.absf main_arg0
  let main_cst : FVec F S_ .f32 := constant S_ .f32 0x7F800000#32
  let main_v1 : FVec F S16x2048x2048 .f32 := broadcastInDim S16x2048x2048 ![] bcast_S_S16x2048x2048 main_cst
  let main_v2 : IVec S16x2048x2048 1 := cmpf .olt main_v0 main_v1
  let main_c : IVec S_ 1 := constantI S_ 1 1#1
  let main_v3 : IVec S_ 1 := (fun x v => Host.reduce IntOp.andi x v reducesTo_S16x2048x2048_S_d0_1_2 h_S_) main_v2 main_c
  let main_v4 : FVec F S10x2048 .f32 := Host.absf main_arg1
  let main_cst_0 : FVec F S_ .f32 := constant S_ .f32 0x7F800000#32
  let main_v5 : FVec F S10x2048 .f32 := broadcastInDim S10x2048 ![] bcast_S_S10x2048 main_cst_0
  let main_v6 : IVec S10x2048 1 := cmpf .olt main_v4 main_v5
  let main_c_1 : IVec S_ 1 := constantI S_ 1 1#1
  let main_v7 : IVec S_ 1 := (fun x v => Host.reduce IntOp.andi x v reducesTo_S10x2048_S_d0_1 h_S_) main_v6 main_c_1
  let main_v8 : IVec S_ 1 := andi main_v3 main_v7
  main_v8
-- ==== Kernel.lean ====
abbrev S16x2048x2048 : Shape := ⟨3, ![16, 2048, 2048]⟩
abbrev S10x2048 : Shape := ⟨2, ![10, 2048]⟩
abbrev S32768x2048 : Shape := ⟨2, ![32768, 2048]⟩
abbrev S_ : Shape := ⟨0, ![]⟩
abbrev S16x2048 : Shape := ⟨2, ![16, 2048]⟩
abbrev S1 : Shape := ⟨1, ![1]⟩
abbrev S512x2048 : Shape := ⟨2, ![512, 2048]⟩
abbrev S16 : Shape := ⟨1, ![16]⟩
abbrev S16x1 : Shape := ⟨2, ![16, 1]⟩
abbrev S512 : Shape := ⟨1, ![512]⟩
abbrev S512x1 : Shape := ⟨2, ![512, 1]⟩
abbrev S512x16 : Shape := ⟨2, ![512, 16]⟩

abbrev nBuf : Space → Nat
  | .hbm => 10
  | .vmem => 5
  | .smem => 0
  | _ => 0

abbrev bufTy : (tb : Table) → Fin (tcTables nBuf tb) → BufTy
  | .hbm, ⟨0, _⟩ => ⟨S16x2048x2048, .f32⟩
  | .hbm, ⟨1, _⟩ => ⟨S10x2048, .f32⟩
  | .hbm, ⟨2, _⟩ => ⟨S32768x2048, .f32⟩
  | .hbm, ⟨3, _⟩ => ⟨S_, .f32⟩
  | .hbm, ⟨4, _⟩ => ⟨S16x2048, .f32⟩
  | .hbm, ⟨5, _⟩ => ⟨S_, .i32⟩
  | .hbm, ⟨6, _⟩ => ⟨S1, .i32⟩
  | .hbm, ⟨7, _⟩ => ⟨S16x2048, .f32⟩
  | .hbm, ⟨8, _⟩ => ⟨S32768x2048, .f32⟩
  | .hbm, ⟨9, _⟩ => ⟨S16x2048x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S512x2048, .f32⟩
  | .local _ .vmem, ⟨4, _⟩ => ⟨S512x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x2048x2048_S32768x2048 : S16x2048x2048.ShapeCasts S32768x2048
  bcast_S_S16x2048 : S_.BroadcastsInDim S16x2048 (![] : Fin 0 → Fin S16x2048.rank)
  bcast_S_S1 : S_.BroadcastsInDim S1 (![] : Fin 0 → Fin S1.rank)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  reduces_S16x2048_S16 : S16x2048.Reduces [1] S16
  shapeCasts_S16_S16x1 : S16.ShapeCasts S16x1
  broadcasts_S16x1_S16x2048 : S16x1.Broadcasts S16x2048
  reduces_S512x2048_S512 : S512x2048.Reduces [1] S512
  shapeCasts_S512_S512x1 : S512.ShapeCasts S512x1
  broadcasts_S512x1_S512x16 : S512x1.Broadcasts S512x16
  iota_S512x16_d1_w32 : S512x16.Iotas .tc 32 [1]
  reduces_S512x16_S512 : S512x16.Reduces [1] S512
  shapeCasts_S32768x2048_S16x2048x2048 : S32768x2048.ShapeCasts S16x2048x2048
  scatter_S16x2048_S1_S10x2048_01_n_0_0_wf : ScatterDims.WF S16x2048 S1 S10x2048 [0, 1] [] [0] 0
  dot_S512x2048_S16x2048_S512x16_1_1_0_0_n_n_wf : DotDims.WF S512x2048 S16x2048 S512x16 [1] [1] [0] [0] [] []
  dot_S512x16_S16x2048_S512x2048_1_0_0_1_n_n_wf : DotDims.WF S512x16 S16x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x2048.size a ≤ S16x2048.size a
  hwx0_1 : ∀ i : grid0.Coords, EltTy.bits .f32 = 32 ∨ (Rect.block (s := S16x2048) S16x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S32768x2048.size a
  hwx0_2 : ∀ i : grid0.Coords, EltTy.bits .f32 = 32 ∨ (Rect.block (s := S32768x2048) S512x2048.size (cc0_transform_2 i) (hinb0_2 i)).WholeWords (EltTy.packing .f32)

variable [Facts₀]

def scatter_S16x2048_S1_S10x2048_01_n_0_0 : ScatterDims S16x2048 S1 S10x2048 where
  updateWindowDims := [0, 1]
  insertedWindowDims := []
  scatterDimsToOperandDims := [0]
  indexVectorDim := 0
  wf := scatter_S16x2048_S1_S10x2048_01_n_0_0_wf
def dot_S512x2048_S16x2048_S512x16_1_1_0_0_n_n : DotDims S512x2048 S16x2048 S512x16 where
  lhsContracting := [1]
  rhsContracting := [1]
  lhsNonContracting := [0]
  rhsNonContracting := [0]
  lhsBatch := []
  rhsBatch := []
  wf := dot_S512x2048_S16x2048_S512x16_1_1_0_0_n_n_wf
def dot_S512x16_S16x2048_S512x2048_1_0_0_1_n_n : DotDims S512x16 S16x2048 S512x2048 where
  lhsContracting := [1]
  rhsContracting := [0]
  lhsNonContracting := [0]
  rhsNonContracting := [1]
  lhsBatch := []
  rhsBatch := []
  wf := dot_S512x16_S16x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S16x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048x2048 : Shape := ⟨3, ![16, 2048, 2048]⟩
abbrev S10x2048 : Shape := ⟨2, ![10, 2048]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩
abbrev S10 : Shape := ⟨1, ![10]⟩
abbrev S10x1 : Shape := ⟨2, ![10, 1]⟩
abbrev S2048x10 : Shape := ⟨2, ![2048, 10]⟩
abbrev S32768x10 : Shape := ⟨2, ![32768, 10]⟩

abbrev nBuf : Space → Nat
  | .hbm => 42
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S10x2048, .f32⟩
  | .hbm, ⟨2, _⟩ => ⟨S32768x2048, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S32768x2048, .f32⟩
  | .hbm, ⟨12, _⟩ => ⟨S32768x2048, .f32⟩
  | .hbm, ⟨13, _⟩ => ⟨S10x2048, .f32⟩
  | .hbm, ⟨14, _⟩ => ⟨S_, .f32⟩
  | .hbm, ⟨15, _⟩ => ⟨S10, .f32⟩
  | .hbm, ⟨16, _⟩ => ⟨S10x1, .f32⟩
  | .hbm, ⟨17, _⟩ => ⟨S10x1, .f32⟩
  | .hbm, ⟨18, _⟩ => ⟨S_, .f32⟩
  | .hbm, ⟨19, _⟩ => ⟨S10x1, .f32⟩
  | .hbm, ⟨20, _⟩ => ⟨S10x1, .f32⟩
  | .hbm, ⟨21, _⟩ => ⟨S10x2048, .f32⟩
  | .hbm, ⟨22, _⟩ => ⟨S10x2048, .f32⟩
  | .hbm, ⟨23, _⟩ => ⟨S2048x10, .f32⟩
  | .hbm, ⟨24, _⟩ => ⟨S32768x10, .f32⟩
  | .hbm, ⟨25, _⟩ => ⟨S_, .f32⟩
  | .hbm, ⟨26, _⟩ => ⟨S32768, .f32⟩
  | .hbm, ⟨27, _⟩ => ⟨S_, .f32⟩
  | .hbm, ⟨28, _⟩ => ⟨S32768, .f32⟩
  | .hbm, ⟨29, _⟩ => ⟨S32768, .f32⟩
  | .hbm, ⟨30, _⟩ => ⟨S32768x1, .f32⟩
  | .hbm, ⟨31, _⟩ => ⟨S32768x10, .f32⟩
  | .hbm, ⟨32, _⟩ => ⟨S32768x10, .f32⟩
  | .hbm, ⟨33, _⟩ => ⟨S32768x10, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S32768x10, .f32⟩
  | .hbm, ⟨38, _⟩ => ⟨S32768x10, .f32⟩
  | .hbm, ⟨39, _⟩ => ⟨S32768x2048, .f32⟩
  | .hbm, ⟨40, _⟩ => ⟨S32768x2048, .f32⟩
  | .hbm, ⟨41, _⟩ => ⟨S16x2048x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]

class Facts₀ : Prop where
  shapeCasts_S16x2048x2048_S32768x2048 : S16x2048x2048.ShapeCasts S32768x2048
  reducesTo_S32768x2048_S32768_d1 : S32768x2048.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x2048_0_1 : S32768x1.BroadcastsInDim S32768x2048 (![0, 1] : Fin 2 → Fin S32768x2048.rank)
  reducesTo_S10x2048_S10_d1 : S10x2048.ReducesTo [1] S10
  bcast_S10_S10x1_0 : S10.BroadcastsInDim S10x1 (![0] : Fin 1 → Fin S10x1.rank)
  bcast_S_S10x1 : S_.BroadcastsInDim S10x1 (![] : Fin 0 → Fin S10x1.rank)
  bcast_S10x1_S10x2048_0_1 : S10x1.BroadcastsInDim S10x2048 (![0, 1] : Fin 2 → Fin S10x2048.rank)
  transposes_S10x2048_S2048x10_1_0 : S10x2048.Transposes [1, 0] S2048x10
  reducesTo_S32768x10_S32768_d1 : S32768x10.ReducesTo [1] S32768
  bcast_S_S32768 : S_.BroadcastsInDim S32768 (![] : Fin 0 → Fin S32768.rank)
  bcast_S32768x1_S32768x10_0_1 : S32768x1.BroadcastsInDim S32768x10 (![0, 1] : Fin 2 → Fin S32768x10.rank)
  shapeCasts_S32768x2048_S16x2048x2048 : S32768x2048.ShapeCasts S16x2048x2048
  dot_S32768x2048_S2048x10_S32768x10_1_0_0_1_n_n_wf : DotDims.WF S32768x2048 S2048x10 S32768x10 [1] [0] [0] [1] [] []
  dot_S32768x10_S10x2048_S32768x2048_1_0_0_1_n_n_wf : DotDims.WF S32768x10 S10x2048 S32768x2048 [1] [0] [0] [1] [] []

variable [Facts₀]

def dot_S32768x2048_S2048x10_S32768x10_1_0_0_1_n_n : DotDims S32768x2048 S2048x10 S32768x10 where
  lhsContracting := [1]
  rhsContracting := [0]
  lhsNonContracting := [0]
  rhsNonContracting := [1]
  lhsBatch := []
  rhsBatch := []
  wf := dot_S32768x2048_S2048x10_S32768x10_1_0_0_1_n_n_wf
def dot_S32768x10_S10x2048_S32768x2048_1_0_0_1_n_n : DotDims S32768x10 S10x2048 S32768x2048 where
  lhsContracting := [1]
  rhsContracting := [0]
  lhsNonContracting := [0]
  rhsNonContracting := [1]
  lhsBatch := []
  rhsBatch := []
  wf := dot_S32768x10_S10x2048_S32768x2048_1_0_0_1_n_n_wf

class Facts : Prop extends Facts₀ where

variable [Facts]
-- ==== Proof.LibERealMatrix.lean ====
/-
  General facts about finite sums and products of extended reals, as a matrix computation at exact
  arithmetic needs them.

  On the extended reals addition and multiplication are commutative and associative, so regrouping a
  sum (a reduction axis cut into blocks and accumulated block by block) needs no hypothesis. Distributing a
  product over a sum does need one: it fails at the infinities. A triple matrix product can therefore be
  re-associated, (sᵀ A) t = sᵀ (A t), once every entry is a real number; the proof passes to the reals, where
  it is the interchange of two finite sums.
-/
import Mathlib.Data.EReal.Operations
import Mathlib.Algebra.BigOperators.Fin
import Mathlib.Algebra.BigOperators.Ring.Finset
import Mathlib.Algebra.BigOperators.Group.Finset.Sigma
import Mathlib.Logic.Equiv.Fin.Basic
import Mathlib.Tactic.Ring

namespace LibERealMatrix

open Finset

/-- An extended real is FINITE when it is neither infinity: it is the image of a real number. -/
def Fin' (x : EReal) : Prop := x ≠ ⊤ ∧ x ≠ ⊥

theorem Fin'.coe (r : ℝ) : Fin' (r : EReal) := ⟨EReal.coe_ne_top r, EReal.coe_ne_bot r⟩

theorem Fin'.exists_real {x : EReal} (h : Fin' x) : ∃ r : ℝ, x = (r : EReal) :=
  ⟨x.toReal, (EReal.coe_toReal h.1 h.2).symm⟩

/-- A family of finite extended reals is the image of a family of reals. -/
theorem exists_real_family {ι : Type*} (f : ι → EReal) (h : ∀ i, Fin' (f i)) :
    ∃ g : ι → ℝ, ∀ i, f i = (g i : EReal) :=
  ⟨fun i => (f i).toReal, fun i => (EReal.coe_toReal (h i).1 (h i).2).symm⟩

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.add {x y : EReal} (hx : Fin' x) (hy : Fin' y) : Fin' (x + y) := by
  obtain ⟨a, rfl⟩ := hx.exists_real
  obtain ⟨b, rfl⟩ := hy.exists_real
  rw [← EReal.coe_add]; exact Fin'.coe _

theorem Fin'.mul {x y : EReal} (hx : Fin' x) (hy : Fin' y) : Fin' (x * y) := by
  obtain ⟨a, rfl⟩ := hx.exists_real
  obtain ⟨b, rfl⟩ := hy.exists_real
  rw [← EReal.coe_mul]; exact Fin'.coe _

/-- A finite sum of finite extended reals is finite. -/
theorem Fin'.sum {ι : Type*} (s : Finset ι) (f : ι → EReal) (h : ∀ i, Fin' (f i)) :
    Fin' (∑ i ∈ s, f i) := by
  obtain ⟨g, hg⟩ := exists_real_family f h
  simp only [hg]
  rw [← coe_sum]; exact Fin'.coe _

/-- A sum over `Fin (n * b)` is the sum over the `n` blocks of the sums over the `b` positions inside a
    block; the element at block `k`, position `r` is the one numbered `r + b * k`. No hypothesis: only
    commutativity and associativity of the addition are used. -/
theorem sum_fin_mul {M : Type*} [AddCommMonoid M] (n b : ℕ) (f : Fin (n * b) → M) :
    ∑ x, f x = ∑ k : Fin n, ∑ r : Fin b, f (finProdFinEquiv (k, r)) :=
  ((finProdFinEquiv (m := n) (n := b)).sum_comp f).symm.trans (Fintype.sum_prod_type _)

theorem finProdFinEquiv_val (n b : ℕ) (k : Fin n) (r : Fin b) :
    ((finProdFinEquiv (k, r) : Fin (n * b)) : ℕ) = r.val + b * k.val := rfl

/-- A scalar product whose index set is cut into `n` blocks of `b` is the sum of the `n` partial scalar
    products, whatever the entries (infinite ones included). -/
theorem dot_blocked (n b : ℕ) (u v : Fin (n * b) → EReal) :
    ∑ x, u x * v x = ∑ k : Fin n, ∑ r : Fin b, u (finProdFinEquiv (k, r)) * v (finProdFinEquiv (k, r)) :=
  sum_fin_mul n b fun x => u x * v x

/-- The same over ranges of naturals: the numbers below `n * b` are the `r + b * s` with `s < n`, `r < b`. -/
theorem sum_range_mul {M : Type*} [AddCommMonoid M] (n b : ℕ) (f : ℕ → M) :
    ∑ J ∈ range (n * b), f J = ∑ s ∈ range n, ∑ r ∈ range b, f (r + b * s) := by
  rw [← Fin.sum_univ_eq_sum_range f (n * b), sum_fin_mul n b (fun x => f x.val),
    ← Fin.sum_univ_eq_sum_range (fun s => ∑ r ∈ range b, f (r + b * s)) n]
  refine Finset.sum_congr rfl fun s _ => ?_
  rw [← Fin.sum_univ_eq_sum_range (fun r => f (r + b * s.val)) b]
  rfl

/-- An accumulator that starts at zero and takes four partial sums in turn ends at their sum. -/
theorem acc_four {M : Type*} [AddCommMonoid M] (d : Fin 4 → M) :
    (((0 + d 0) + d 1) + d 2) + d 3 = ∑ k, d k := by
  rw [Fin.sum_univ_four, zero_add]

/-- Re-association of a triple product of matrices with FINITE entries:
    `∑ j, (∑ i, s i * A i j) * t j = ∑ i, s i * ∑ j, A i j * t j`. With an infinite entry this fails
    (the product does not distribute over a sum of opposite infinities). -/
theorem sum_mul_sum_assoc {ι κ : Type*} [Fintype ι] [Fintype κ]
    (s : ι → EReal) (A : ι → κ → EReal) (t : κ → EReal)
    (hs : ∀ i, Fin' (s i)) (hA : ∀ i j, Fin' (A i j)) (ht : ∀ j, Fin' (t j)) :
    ∑ j, (∑ i, s i * A i j) * t j = ∑ i, s i * ∑ j, A i j * t j := by
  obtain ⟨s', hs'⟩ := exists_real_family s hs
  obtain ⟨A', hA'⟩ : ∃ g : ι → κ → ℝ, ∀ i j, A i j = (g i j : EReal) :=
    ⟨fun i j => (A i j).toReal, fun i j => (EReal.coe_toReal (hA i j).1 (hA i j).2).symm⟩
  obtain ⟨t', ht'⟩ := exists_real_family t ht
  have hL : ∀ j, (∑ i, s i * A i j) * t j = (((∑ i, s' i * A' i j) * t' j : ℝ) : EReal) := by
    intro j
    rw [EReal.coe_mul, coe_sum, ht']
    refine congrArg (· * (t' j : EReal)) (Finset.sum_congr rfl fun i _ => ?_)
    rw [hs', hA', EReal.coe_mul]
  have hR : ∀ i, s i * ∑ j, A i j * t j = ((s' i * ∑ j, A' i j * t' j : ℝ) : EReal) := by
    intro i
    rw [EReal.coe_mul, coe_sum, hs']
    refine congrArg ((s' i : EReal) * ·) (Finset.sum_congr rfl fun j _ => ?_)
    rw [hA', ht', EReal.coe_mul]
  simp only [hL, hR]
  rw [← coe_sum, ← coe_sum]
  refine congrArg _ ?_
  simp only [Finset.sum_mul, Finset.mul_sum]
  rw [Finset.sum_comm]
  exact Finset.sum_congr rfl fun i _ => Finset.sum_congr rfl fun j _ => by ring

end LibERealMatrix
-- ==== Proof.SoftRead.lean ====
/-
  The soft read of a small memory, row by row, on the extended reals.

  A row f of L numbers is compared with each memory item (a row of L numbers) by the cosine similarity — both
  vectors divided by their Euclidean norm, the norm bounded below by a positive d —, the similarities are turned
  into weights by a softmax, and the row is updated by the weighted sum of the items: f + Σ_k p_k · M_k.

  Two arrangements of this computation are stated. The first keeps sixteen items of which only the first ten
  count: the items from the tenth on are rows of zeros, their similarities are replaced by −∞ before the softmax,
  the reciprocal norms are 1/√(max(‖x‖², c)) and they multiply the dot product (the row's) and the item (the
  item's). The second keeps the ten items and divides each vector by max(‖x‖, d) before the dot product.
  When c = d² and every entry is a real number the two are equal:
    * √(max(s, d²)) = max(√s, d) for s ≥ 0, so the two reciprocal norms are one real number, and a real factor
      moves through a finite sum of reals (this is where finiteness is used);
    * the maximum over sixteen values of which the last six are −∞ is the maximum over the first ten;
    * e^(−∞ − a) = 0, so the last six terms of the softmax's denominator vanish;
    * whatever weight the softmax gives a masked item, it multiplies a zero entry.
-/
import Idealize.ShloMosaic.PureOps.Ideal
import proofs.«108266_g72112500899924_cont_9to1_m_1190_2_alg».proof.Proof.LibERealMatrix

noncomputable section

namespace SoftRead

open Idealize.ShloMosaic

variable {L : ℕ}

/-- The maximum of a finite family, from −∞. -/
def vmax {n : ℕ} (s : Fin n → EReal) : EReal := (Finset.univ : Finset (Fin n)).fold max ⊥ s

/-- The softmax's numerators: e^(s_k − max s). -/
def expShift {n : ℕ} (s : Fin n → EReal) (k : Fin n) : EReal := Ideal.exp (s k - max ⊥ (vmax s))

/-- Ten items padded to sixteen by rows of zeros. -/
def pad (M : Fin 10 → Fin L → EReal) (k : Fin 16) (l : Fin L) : EReal :=
  if h : k.val < 10 then M ⟨k.val, h⟩ l else 0

/-- Similarity of the row with item k, sixteen-item arrangement: the dot product with the item scaled by its
    reciprocal norm, times the row's reciprocal norm. -/
def simK (c : EReal) (f : Fin L → EReal) (M : Fin 16 → Fin L → EReal) (k : Fin 16) : EReal :=
  (∑ l, f l * (M k l * Ideal.rsqrt (max (∑ l', M k l' * M k l') c))) * Ideal.rsqrt (max (∑ l', f l' * f l') c)

/-- The items from the tenth on are masked by −∞. -/
def maskK (s : Fin 16 → EReal) (k : Fin 16) : EReal := if k.val < 10 then s k else ⊥

/-- The updated row, sixteen-item arrangement. -/
def readK (c : EReal) (f : Fin L → EReal) (M : Fin 16 → Fin L → EReal) (j : Fin L) : EReal :=
  f j + ∑ k, Ideal.div (expShift (maskK (simK c f M)) k) (∑ k', expShift (maskK (simK c f M)) k') * M k j

/-- Similarity of the row with item k, ten-item arrangement: the dot product of the two normalised vectors. -/
def simR (d : EReal) (f : Fin L → EReal) (M : Fin 10 → Fin L → EReal) (k : Fin 10) : EReal :=
  ∑ l, Ideal.div (f l) (max (Ideal.sqrt (∑ l', f l' * f l')) d)
    * Ideal.div (M k l) (max (Ideal.sqrt (∑ l', M k l' * M k l')) d)

/-- The updated row, ten-item arrangement. -/
def readR (d : EReal) (f : Fin L → EReal) (M : Fin 10 → Fin L → EReal) (j : Fin L) : EReal :=
  f j + ∑ k, Ideal.div (expShift (simR d f M) k) (∑ k', expShift (simR d f M) k') * M k j

/-! ## Real arithmetic -/

/-- √(max(a, d²)) = max(√a, d) for d ≥ 0: the square root is monotone. -/
theorem sqrt_max_sq (a d : ℝ) (hd : 0 ≤ d) : Real.sqrt (max a (d ^ 2)) = max (Real.sqrt a) d := by
  rcases le_total a (d ^ 2) with h | h
  · rw [max_eq_right h, Real.sqrt_sq hd, max_eq_right]
    calc Real.sqrt a ≤ Real.sqrt (d ^ 2) := Real.sqrt_le_sqrt h
      _ = d := Real.sqrt_sq hd
  · rw [max_eq_left h, max_eq_left]
    calc d = Real.sqrt (d ^ 2) := (Real.sqrt_sq hd).symm
      _ ≤ Real.sqrt a := Real.sqrt_le_sqrt h

theorem coe_max (a b : ℝ) : max (a : EReal) (b : EReal) = ((max a b : ℝ) : EReal) :=
  (EReal.coe_strictMono.monotone.map_max).symm

/-- The reciprocal square root of max(a, c), c > 0, is the real number 1/√(max(a, c)). -/
theorem rsqrt_max_coe (a c : ℝ) (hc : 0 < c) :
    Ideal.rsqrt (max (a : EReal) (c : EReal)) = (((Real.sqrt (max a c))⁻¹ : ℝ) : EReal) := by
  rw [coe_max, Ideal.rsqrt_coe]
  have hp : 0 < max a c := lt_max_of_lt_right hc
  rw [if_neg (not_lt.mpr hp.le), if_neg hp.ne']

/-- A real divided by max(√a, d), a ≥ 0 and d > 0, is the real product with the reciprocal. -/
theorem div_max_sqrt_coe (x a d : ℝ) (ha : 0 ≤ a) (hd : 0 < d) :
    Ideal.div (x : EReal) (max (Ideal.sqrt (a : EReal)) (d : EReal)) = ((x * (max (Real.sqrt a) d)⁻¹ : ℝ) : EReal) := by
  rw [Ideal.sqrt_coe, if_neg (not_lt.mpr ha), coe_max, Ideal.div_coe (ne_of_gt (lt_max_of_lt_right hd)), one_div,
    ← EReal.coe_mul]

theorem coe_sum_sq {ι : Type*} [Fintype ι] (g : ι → ℝ) :
    (∑ l, (g l : EReal) * (g l : EReal)) = ((∑ l, g l * g l : ℝ) : EReal) := by
  rw [LibERealMatrix.coe_sum]; simp only [EReal.coe_mul]

/-! ## The two similarities agree on the first ten items -/

theorem pad_castLE (M : Fin 10 → Fin L → EReal) (k : Fin 10) (l : Fin L) :
    pad M (Fin.castLE (by norm_num) k) l = M k l := by
  unfold pad; rw [dif_pos (show (Fin.castLE (by norm_num : 10 ≤ 16) k).val < 10 from k.isLt)]; rfl

theorem pad_of_le (M : Fin 10 → Fin L → EReal) (k : Fin 16) (hk : 10 ≤ k.val) (l : Fin L) : pad M k l = 0 := by
  unfold pad; rw [dif_neg (not_lt.mpr hk)]

theorem simK_eq_simR (c d : ℝ) (hd : 0 < d) (hc : c = d ^ 2) (f : Fin L → ℝ) (M : Fin 10 → Fin L → ℝ) (k : Fin 10) :
    simK (c : EReal) (fun l => (f l : EReal)) (pad fun k l => (M k l : EReal)) (Fin.castLE (by norm_num) k)
      = simR (d : EReal) (fun l => (f l : EReal)) (fun k l => (M k l : EReal)) k := by
  have hc0 : 0 < c := hc ▸ pow_pos hd 2
  have hA0 : 0 ≤ ∑ l, M k l * M k l := Finset.sum_nonneg fun l _ => mul_self_nonneg _
  have hB0 : 0 ≤ ∑ l, f l * f l := Finset.sum_nonneg fun l _ => mul_self_nonneg _
  unfold simK simR
  simp only [pad_castLE, coe_sum_sq]
  rw [rsqrt_max_coe _ c hc0, rsqrt_max_coe _ c hc0]
  simp only [div_max_sqrt_coe _ _ d hA0 hd, div_max_sqrt_coe _ _ d hB0 hd]
  rw [hc, sqrt_max_sq _ d hd.le, sqrt_max_sq _ d hd.le]
  simp only [← EReal.coe_mul]
  rw [← LibERealMatrix.coe_sum, ← LibERealMatrix.coe_sum, ← EReal.coe_mul]
  refine congrArg _ ?_
  rw [Finset.sum_mul]
  exact Finset.sum_congr rfl fun l _ => by ring

/-! ## Sixteen values of which the last six do not count -/

/-- A sum over sixteen terms whose last six are zero is the sum of the first ten. -/
theorem sum_pad {N : Type*} [AddCommMonoid N] (F : Fin 16 → N) (h : ∀ k : Fin 16, 10 ≤ k.val → F k = 0) :
    ∑ k, F k = ∑ k : Fin 10, F (Fin.castLE (by norm_num) k) := by
  have e : (∑ k : Fin 16, F k) = ∑ k : Fin (10 + 6), F k := rfl
  rw [e, Fin.sum_univ_add]
  have z : ∑ i : Fin 6, F (Fin.natAdd 10 i) = 0 :=
    Finset.sum_eq_zero fun i _ => h _ (by rw [Fin.coe_natAdd]; exact Nat.le_add_right 10 _)
  rw [z, add_zero]
  rfl

/-- A maximum over sixteen values whose last six are −∞ is the maximum of the first ten. -/
theorem vmax_mask (s16 : Fin 16 → EReal) (s10 : Fin 10 → EReal)
    (h1 : ∀ k : Fin 10, s16 (Fin.castLE (by norm_num) k) = s10 k) (h2 : ∀ k : Fin 16, 10 ≤ k.val → s16 k = ⊥) :
    vmax s16 = vmax s10 := by
  unfold vmax
  apply le_antisymm
  · rw [Finset.fold_max_le]
    refine ⟨bot_le, fun k _ => ?_⟩
    by_cases hk : k.val < 10
    · have e : s16 k = s10 ⟨k.val, hk⟩ := h1 ⟨k.val, hk⟩
      rw [e, Finset.le_fold_max]
      exact Or.inr ⟨_, Finset.mem_univ _, le_refl _⟩
    · rw [h2 k (not_lt.mp hk)]; exact bot_le
  · rw [Finset.fold_max_le]
    refine ⟨bot_le, fun k _ => ?_⟩
    rw [Finset.le_fold_max]
    exact Or.inr ⟨Fin.castLE (by norm_num) k, Finset.mem_univ _, (h1 k).ge⟩

/-! ## The two arrangements are one function of real entries -/

theorem readK_eq_readR (c d : ℝ) (hd : 0 < d) (hc : c = d ^ 2) (f : Fin L → ℝ) (M : Fin 10 → Fin L → ℝ) (j : Fin L) :
    readK (c : EReal) (fun l => (f l : EReal)) (pad fun k l => (M k l : EReal)) j
      = readR (d : EReal) (fun l => (f l : EReal)) (fun k l => (M k l : EReal)) j := by
  have h1 : ∀ k : Fin 10, maskK (simK (c : EReal) (fun l => (f l : EReal)) (pad fun k l => (M k l : EReal))) (Fin.castLE (by norm_num) k)
      = simR (d : EReal) (fun l => (f l : EReal)) (fun k l => (M k l : EReal)) k := fun k => by
    unfold maskK; rw [if_pos (show (Fin.castLE (by norm_num : 10 ≤ 16) k).val < 10 from k.isLt)]
    exact simK_eq_simR c d hd hc f M k
  have h2 : ∀ k : Fin 16, 10 ≤ k.val →
      maskK (simK (c : EReal) (fun l => (f l : EReal)) (pad fun k l => (M k l : EReal))) k = ⊥ := fun k hk => by
    unfold maskK; rw [if_neg (not_lt.mpr hk)]
  have hv := vmax_mask _ _ h1 h2
  have e1 : ∀ k : Fin 10, expShift (maskK (simK (c : EReal) (fun l => (f l : EReal)) (pad fun k l => (M k l : EReal)))) (Fin.castLE (by norm_num) k)
      = expShift (simR (d : EReal) (fun l => (f l : EReal)) (fun k l => (M k l : EReal))) k := fun k => by
    unfold expShift; rw [h1, hv]
  have e2 : ∀ k : Fin 16, 10 ≤ k.val →
      expShift (maskK (simK (c : EReal) (fun l => (f l : EReal)) (pad fun k l => (M k l : EReal)))) k = 0 := fun k hk => by
    unfold expShift; rw [h2 k hk, sub_eq_add_neg, EReal.bot_add]; rfl
  unfold readK readR
  rw [sum_pad _ e2, sum_pad _ (fun k hk => by rw [pad_of_le _ k hk, mul_zero])]
  refine congrArg _ (Finset.sum_congr rfl fun k _ => ?_)
  rw [e1, pad_castLE]
  simp only [e1]

end SoftRead

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibColumnOps.lean ====
/-
  A column broadcast along the rows' entries, and reductions along a row kept as a column, read at an index,
  at exact arithmetic.

  A matrix [a, 1] broadcast to [a, b] reads, at (p, q), the column's entry p. The maximum over axis 1 of an [A, B]
  matrix at row r is the fold of max over the row's entries from the initial word's value. A sum over axis 1 that is
  kept as an [A, 1] column and broadcast back to C columns reads, at (p, q), the sum of row p — the shape a
  normalisation (a softmax's denominator, a row norm) prints as.
-/
import Idealize.ShloMosaic.Lib.ValueIdx
import Idealize.ShloMosaic.Lib.Pipeline.Value
import Idealize.ShloMosaic.PureOps.Ideal.Laws
import proofs.«108266_g72112500899924_cont_9to1_m_1190_2_alg».proof.Proof.LibKeepdims

noncomputable section

namespace LibColumnOps

open Idealize.ShloMosaic Idealize.ShloMosaic.ValueIdx

/-- An [a, 1] column broadcast to [a, b] reads, at (p, q), the column at p. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over axis 1 of an [A, B] matrix, at row r: the fold of max over the row, from the initial word's value. -/
theorem max_axis1_apply {A B : ℕ} {φ : FTy} (src : FVec Ideal ⟨2, ![A, B]⟩ φ) (acc : BitVec φ.bits)
    (h : Shape.Reduces ⟨2, ![A, B]⟩ [1] ⟨1, ![A]⟩) (hφ : FKind.Formats φ) (hacc : acc = FKind.maximumf.neutral φ hφ) (r : Fin A) :
    multiReduction .maximumf [1] ⟨1, ![A]⟩ src acc h hφ hacc (ix1 r)
      = (Finset.univ : Finset (Fin B)).fold max (Ideal.ofBits φ acc) (fun k => src (ix2 r k)) := by
  refine (Ideal.multiReduction_maximumf_single src acc h hφ hacc (ix1 r)).trans ?_
  refine congrArg (fun g => Finset.fold max (Ideal.ofBits φ acc) g (Finset.univ : Finset (Fin B))) (funext fun k => congrArg src ?_)
  funext d
  match d with
  | ⟨0, _⟩ => exact Fin.ext rfl
  | ⟨1, _⟩ => exact Fin.ext rfl

/-- The sum over the columns, kept as a unit column and broadcast to C columns, at (p, q): the sum of row p. -/
theorem rowsum_bcast_apply {A B C : ℕ} (y : FVec Ideal ⟨2, ![A, B]⟩ .f32)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (shapeCast ⟨2, ![A, 1]⟩ (multiReduction .add [1] ⟨1, ![A]⟩ y 0x00000000#32 hred hφ hacc) hcast) hb (ix2 p q)
      = ∑ l, y (ix2 p l) := by
  rw [broadcastTo_col_apply, LibKeepdims.shapeCast_col_apply, LibKeepdims.sum_axis1_apply]

end LibColumnOps

end
-- ==== Proof.Words.lean ====
/-
  The float words the two programs carry, as extended reals.

  The word 0xFF800000 is −∞. The word 0x2B8CBCCC, the single-precision neighbour of 10⁻¹², is the dyadic rational
  2305843 / 2⁶¹ exactly; its square is 5316911940649 / 2¹²².
-/
import Idealize.ShloMosaic.PureOps.Ideal

noncomputable section

namespace SoftRead.Words

open Idealize.ShloMosaic

/-- The word 0xFF800000 is −∞. -/
theorem ofBits_neg_inf : Ideal.ofBits .f32 0xFF800000#32 = ⊥ := by
  simp [Ideal.ofBits, Ideal.ieee]

/-- The lower bound of the norms, exactly. -/
def normFloor : ℝ := 2305843 / 2305843009213693952

/-- The word 0x2B8CBCCC is that bound. -/
theorem ofBits_normFloor : Ideal.ofBits .f32 0x2B8CBCCC#32 = ((normFloor : ℝ) : EReal) := by
  unfold normFloor
  simp [Ideal.ofBits, Ideal.ieee, -EReal.coe_mul]
  norm_num

theorem normFloor_pos : 0 < normFloor := by unfold normFloor; norm_num

/-- The bound's square. -/
theorem normFloor_sq : (5316911940649 / 5316911983139663491615228241121378304 : ℝ) = normFloor ^ 2 := by
  unfold normFloor; norm_num

end SoftRead.Words

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibMatmulNT.lean ====
/-
  A TensorCore product of an M×K matrix with an N×K matrix, each contracted along its SECOND axis (the right factor
  enters transposed without being transposed in memory), at exact arithmetic, read at an entry: the accumulator's
  entry plus the sum over the contracted axis of the products of the left factor's row entries with the right
  factor's ROW entries,

      (acc + l · rᵀ)[j₀, j₁] = acc[j₀, j₁] + Σ_k l[j₀, k] · r[j₁, k].

  Stated for any contraction record between two-axis shapes whose operand indices are "row of the result, contracted
  position" and "column of the result, contracted position" — four facts that hold by computation for the record such
  a product prints. Nothing is asked of the entries: at exact arithmetic the product is this sum by definition, and the
  only step is to re-index the one-axis contraction by its coordinate.
-/
import Idealize.ShloMosaic.Lib.ValueIdx
import Idealize.ShloMosaic.PureOps.Ideal.Laws

noncomputable section

namespace LibMatmulNT

open Idealize.ShloMosaic Idealize.ShloMosaic.ValueIdx

/-- `tpu.matmul` of an M×K by an N×K matrix, both contracted on axis 1, onto an accumulator, at entry `j`:
    `acc[j] + Σ_k l[j₀,k] · r[j₁,k]`. -/
theorem matmul_nt_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (j 1).val) (hr1 : ∀ j k, (D.rhsIdx j k 1).val = (k ⟨0, by omega⟩).val)
    (prec : Option ContractPrecision) (l : FVec Ideal ⟨2, ![M, K]⟩ φ₁) (r : FVec Ideal ⟨2, ![N, K]⟩ φ₂)
    (acc : FVec Ideal ⟨2, ![M, N]⟩ .f32) (j : (⟨2, ![M, N]⟩ : Shape).Idx) :
    FloatOps.matmul (F := Ideal) D prec l r acc j
      = acc j + ∑ k : Fin K, l (ix2 (n0 := M) (n1 := K) (j 0) k) * r (ix2 (n0 := N) (n1 := K) (j 1) k) := by
  rw [Ideal.matmul_apply, ← Equiv.sum_comp (contrEquiv1 D K hr hs).symm]
  refine congrArg (acc j + ·) (Finset.sum_congr rfl fun k _ => ?_)
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := N) (n1 := K) (j 1) k := funext fun a => Fin.ext (by
    match a with
    | ⟨0, _⟩ => exact hr0 _ _
    | ⟨1, _⟩ => exact (hr1 _ _).trans hk)
  rw [e1, e2]

/-- The same into the zero splat: the accumulator's entry is `0`, so the entry is the bare sum. -/
theorem matmul_nt_zero_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (j 1).val) (hr1 : ∀ j k, (D.rhsIdx j k 1).val = (k ⟨0, by omega⟩).val)
    (prec : Option ContractPrecision) (l : FVec Ideal ⟨2, ![M, K]⟩ φ₁) (r : FVec Ideal ⟨2, ![N, K]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := N) (n1 := K) (j 1) k) := by
  rw [matmul_nt_apply D hr hs hl0 hl1 hr0 hr1]
  show Ideal.ofBits .f32 0x00000000#32 + _ = _
  rw [Ideal.ofBits_zero_f32, zero_add]

end LibMatmulNT

end
-- ==== Proof.BodyAtEntry.lean ====
/-
  One block of rows through the kernel body, read at an entry.

  The body takes a block of 512 rows (each of 2048 numbers) and the sixteen memory items, and stores, for each
  row, the row plus the softmax-weighted sum of the items. Reading the stored vector at row r, column j uses
  nothing but the shape of each operation: a sum along the columns kept as a unit column and broadcast back is the
  row's sum at every column; the product with the transposed items at (r, k) is the sum over the columns of the
  row's entries times item k's; the column counter compared with ten is the condition "k < 10"; the maximum along
  the items is the fold of max from −∞; the second product at (r, j) is the sum over the items. The entry is
  therefore the sixteen-item soft read of row r.
-/
import proofs.«108266_g72112500899924_cont_9to1_m_1190_2_alg».proof.Proof.Gen.KernelIdeal.Skeleton
import proofs.«108266_g72112500899924_cont_9to1_m_1190_2_alg».proof.Proof.SoftRead
import proofs.«108266_g72112500899924_cont_9to1_m_1190_2_alg».proof.Proof.LibKeepdims
import proofs.«108266_g72112500899924_cont_9to1_m_1190_2_alg».proof.Proof.LibColumnOps
import proofs.«108266_g72112500899924_cont_9to1_m_1190_2_alg».proof.Proof.Words
import proofs.«108266_g72112500899924_cont_9to1_m_1190_2_alg».proof.Proof.LibMatmulIdx
import proofs.«108266_g72112500899924_cont_9to1_m_1190_2_alg».proof.Proof.LibMatmulNT
import Idealize.ShloMosaic.Lib.ValueIdx
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx

/-! ## The reciprocal norm column -/

open LibColumnOps

/-- The reciprocal norm column 1/√(max(Σ_l x², c)), broadcast to C columns, at (p, q). -/
theorem rnorm_bcast_apply {A B C : ℕ} (x : FVec Ideal ⟨2, ![A, B]⟩ .f32) (c : EReal)
    (hred : Shape.Reduces ⟨2, ![A, B]⟩ [1] ⟨1, ![A]⟩) (hcast : (⟨1, ![A]⟩ : Shape).ShapeCasts ⟨2, ![A, 1]⟩)
    (hb : (⟨2, ![A, 1]⟩ : Shape).Broadcasts ⟨2, ![A, C]⟩) (hφ : FKind.Formats .f32)
    (hacc : (0x00000000#32 : BitVec 32) = FKind.add.neutral .f32 hφ) (p : Fin A) (q : Fin C) :
    broadcastTo ⟨2, ![A, C]⟩ (rsqrt (maximumf
        (shapeCast ⟨2, ![A, 1]⟩ (multiReduction .add [1] ⟨1, ![A]⟩ (mulf x x) 0x00000000#32 hred hφ hacc) hcast)
        (broadcast ⟨2, ![A, 1]⟩ c))) hb (ix2 p q)
      = Ideal.rsqrt (max (∑ l, x (ix2 p l) * x (ix2 p l)) c) := by
  rw [broadcastTo_col_apply]
  show Ideal.rsqrt (max (shapeCast ⟨2, ![A, 1]⟩ (multiReduction .add [1] ⟨1, ![A]⟩ (mulf x x) 0x00000000#32 hred hφ hacc) hcast (ix2 p 0)) c) = _
  rw [LibKeepdims.shapeCast_col_apply, LibKeepdims.sum_axis1_apply]
  rfl

/-- The column counter compared with ten selects the first ten columns. -/
theorem lt_ten_word : ∀ k : Fin 16, IntOp.cmpi .slt (BitVec.ofNat 32 k.val) 10#32 = if k.val < 10 then 1#1 else 0#1 := by
  decide

theorem select_first_ten (a b : FVec Ideal S512x16 .f32) (r : Fin 512) (k : Fin 16) :
    select (cmpi .slt (iota .tc S512x16 32 [1] iota_S512x16_d1_w32) (broadcast S512x16 10#32)) a b (ix2 r k)
      = if k.val < 10 then a (ix2 r k) else b (ix2 r k) := by
  show Scalar.select (IntOp.cmpi .slt (iota .tc S512x16 32 [1] iota_S512x16_d1_w32 (ix2 r k)) 10#32) _ _ = _
  rw [iota_single_apply]
  show Scalar.select (IntOp.cmpi .slt (BitVec.ofNat 32 k.val) 10#32) _ _ = _
  rw [lt_ten_word k]
  unfold Scalar.select
  by_cases hk : k.val < 10
  · rw [if_pos hk, if_pos hk]; exact if_pos (by decide)
  · rw [if_neg hk, if_neg hk]; exact if_neg (by decide)

/-! ## The two products' index facts -/

local notation "DA" => dot_S512x2048_S16x2048_S512x16_1_1_0_0_n_n
local notation "DB" => dot_S512x16_S16x2048_S512x2048_1_0_0_1_n_n

theorem da_l0 (i : S512x16.Idx) (q : (DA).contr.Idx) : ((DA).lhsIdx i q 0).val = (i 0).val := by
  unfold DotDims.lhsIdx
  rw [dif_neg (show ¬(0 : Fin S512x2048.rank) ∈ (DA).lhsBatch by decide), dif_pos (show (0 : Fin S512x2048.rank) ∈ (DA).lhsNonContracting by decide)]
  rfl
theorem da_l1 (i : S512x16.Idx) (q : (DA).contr.Idx) : ((DA).lhsIdx i q 1).val = (q ⟨0, by decide⟩).val :=
  (DA).lhsIdx_val_of_single rfl i q
theorem da_r0 (i : S512x16.Idx) (q : (DA).contr.Idx) : ((DA).rhsIdx i q 0).val = (i 1).val := by
  unfold DotDims.rhsIdx
  rw [dif_neg (show ¬(0 : Fin S16x2048.rank) ∈ (DA).rhsBatch by decide), dif_pos (show (0 : Fin S16x2048.rank) ∈ (DA).rhsNonContracting by decide)]
  rfl
theorem da_r1 (i : S512x16.Idx) (q : (DA).contr.Idx) : ((DA).rhsIdx i q 1).val = (q ⟨0, by decide⟩).val :=
  (DA).rhsIdx_val_of_single rfl i q

theorem db_l0 (i : S512x2048.Idx) (q : (DB).contr.Idx) : ((DB).lhsIdx i q 0).val = (i 0).val := by
  unfold DotDims.lhsIdx
  rw [dif_neg (show ¬(0 : Fin S512x16.rank) ∈ (DB).lhsBatch by decide), dif_pos (show (0 : Fin S512x16.rank) ∈ (DB).lhsNonContracting by decide)]
  rfl
theorem db_l1 (i : S512x2048.Idx) (q : (DB).contr.Idx) : ((DB).lhsIdx i q 1).val = (q ⟨0, by decide⟩).val :=
  (DB).lhsIdx_val_of_single rfl i q
theorem db_r0 (i : S512x2048.Idx) (q : (DB).contr.Idx) : ((DB).rhsIdx i q 0).val = (q ⟨0, by decide⟩).val :=
  (DB).rhsIdx_val_of_single rfl i q
theorem db_r1 (i : S512x2048.Idx) (q : (DB).contr.Idx) : ((DB).rhsIdx i q 1).val = (i 1).val := by
  unfold DotDims.rhsIdx
  rw [dif_neg (show ¬(1 : Fin S16x2048.rank) ∈ (DB).rhsBatch by decide), dif_pos (show (1 : Fin S16x2048.rank) ∈ (DB).rhsNonContracting by decide)]
  rfl

/-! ## The body's intermediate arrays -/

/-- The bound under the square roots, as the body's named constant reads. -/
abbrev cK : EReal := Named.named (F := Ideal) κ "eps_sq" (φ := .f32) 0x179ABE15#32

/-- The masked similarities of the block's rows with the sixteen items. -/
def simArr (x0 : FVec Ideal S512x2048 .f32) (x1 : FVec Ideal S16x2048 .f32) : FVec Ideal S512x16 .f32 :=
  select (cmpi .slt (iota .tc S512x16 32 [1] iota_S512x16_d1_w32) (broadcast S512x16 10#32))
    (mulf
      (matmul DA none x0
        (mulf x1
          (broadcastTo S16x2048 (rsqrt (maximumf
            (shapeCast S16x1 (multiReduction .add [1] S16 (mulf x1 x1) 0x00000000#32 reduces_S16x2048_S16 (.inl rfl) rfl) shapeCasts_S16_S16x1)
            (broadcast S16x1 cK))) broadcasts_S16x1_S16x2048))
        (constant S512x16 .f32 0x00000000#32))
      (broadcastTo S512x16 (rsqrt (maximumf
        (shapeCast S512x1 (multiReduction .add [1] S512 (mulf x0 x0) 0x00000000#32 reduces_S512x2048_S512 (.inl rfl) rfl) shapeCasts_S512_S512x1)
        (broadcast S512x1 cK))) broadcasts_S512x1_S512x16))
    (broadcast S512x16 (FloatOps.ofBits .f32 0xFF800000#32))

/-- The softmax's numerators. -/
def expArr (x0 : FVec Ideal S512x2048 .f32) (x1 : FVec Ideal S16x2048 .f32) : FVec Ideal S512x16 .f32 :=
  exp (subf (simArr x0 x1)
    (broadcastTo S512x16
      (shapeCast S512x1
        (maximumf (broadcast S512 (FloatOps.ofBits .f32 0xFF800000#32))
          (multiReduction .maximumf [1] S512 (simArr x0 x1) 0xFF800000#32 reduces_S512x16_S512 (.inl rfl) rfl))
        shapeCasts_S512_S512x1)
      broadcasts_S512x1_S512x16))

/-- The body's stored vector over these names (the two identity casts of the loaded blocks dropped). -/
theorem pay_eq (x0 : FVec Ideal S512x2048 .f32) (x1 : FVec Ideal S16x2048 .f32) :
    k0_pay1 (F := Ideal) x0 x1
      = addf x0 (matmul DB none
          (divf (expArr x0 x1)
            (broadcastTo S512x16
              (shapeCast S512x1 (multiReduction .add [1] S512 (expArr x0 x1) 0x00000000#32 reduces_S512x16_S512 (.inl rfl) rfl) shapeCasts_S512_S512x1)
              broadcasts_S512x1_S512x16))
          x1 (constant S512x2048 .f32 0x00000000#32)) := by
  unfold k0_pay1 expArr simArr
  simp only [shapeCast_self]

/-- The masked similarity at (r, k). -/
theorem simArr_apply (x0 : FVec Ideal S512x2048 .f32) (x1 : FVec Ideal S16x2048 .f32) (r : Fin 512) (k : Fin 16) :
    simArr x0 x1 (ix2 r k)
      = SoftRead.maskK (SoftRead.simK cK (fun l => x0 (ix2 r l)) (fun k l => x1 (ix2 k l))) k := by
  unfold simArr
  rw [select_first_ten]
  unfold SoftRead.maskK
  refine if_congr Iff.rfl ?_ SoftRead.Words.ofBits_neg_inf
  rw [mulf_apply]
  unfold SoftRead.simK
  refine congrArg₂ (· * ·) ?_
    (rnorm_bcast_apply x0 cK reduces_S512x2048_S512 shapeCasts_S512_S512x1 broadcasts_S512x1_S512x16 (.inl rfl) rfl r k)
  refine (LibMatmulNT.matmul_nt_zero_apply DA rfl rfl da_l0 da_l1 da_r0 da_r1 none x0 _ (ix2 r k)).trans ?_
  refine Finset.sum_congr rfl fun l _ => ?_
  show x0 (ix2 r l) * (x1 (ix2 k l) * broadcastTo S16x2048 _ broadcasts_S16x1_S16x2048 (ix2 k l)) = _
  exact congrArg (fun z => x0 (ix2 r l) * (x1 (ix2 k l) * z))
    (rnorm_bcast_apply x1 cK reduces_S16x2048_S16 shapeCasts_S16_S16x1 broadcasts_S16x1_S16x2048 (.inl rfl) rfl k l)

/-- The softmax's numerator at (r, k). -/
theorem expArr_apply (x0 : FVec Ideal S512x2048 .f32) (x1 : FVec Ideal S16x2048 .f32) (r : Fin 512) (k : Fin 16) :
    expArr x0 x1 (ix2 r k)
      = SoftRead.expShift (SoftRead.maskK (SoftRead.simK cK (fun l => x0 (ix2 r l)) (fun k l => x1 (ix2 k l)))) k := by
  unfold expArr
  show Ideal.exp (simArr x0 x1 (ix2 r k) - broadcastTo S512x16 _ broadcasts_S512x1_S512x16 (ix2 r k)) = _
  rw [broadcastTo_col_apply, LibKeepdims.shapeCast_col_apply, maximumf_apply]
  have hm := max_axis1_apply (simArr x0 x1) 0xFF800000#32 reduces_S512x16_S512 (.inl rfl) rfl r
  unfold SoftRead.expShift SoftRead.vmax
  refine congrArg Ideal.exp (congrArg₂ (· - ·) (simArr_apply x0 x1 r k) (congrArg₂ max SoftRead.Words.ofBits_neg_inf ?_))
  refine hm.trans ?_
  rw [SoftRead.Words.ofBits_neg_inf]
  exact congrArg (fun g => Finset.fold max ⊥ g (Finset.univ : Finset (Fin 16))) (funext fun k' => simArr_apply x0 x1 r k')

/-- THE BODY AT AN ENTRY: the stored vector at row r, column j is the sixteen-item soft read of row r. -/
theorem body_apply (x0 : FVec Ideal S512x2048 .f32) (x1 : FVec Ideal S16x2048 .f32) (r : Fin 512) (j : Fin 2048) :
    k0_pay1 (F := Ideal) x0 x1 (ix2 r j)
      = SoftRead.readK cK (fun l => x0 (ix2 r l)) (fun k l => x1 (ix2 k l)) j := by
  rw [pay_eq, addf_apply]
  unfold SoftRead.readK
  refine congrArg (x0 (ix2 r j) + ·) ?_
  refine (LibMatmulIdx.matmul2_apply DB rfl rfl db_l0 db_l1 db_r0 db_r1 none _ x1 (ix2 r j)).trans ?_
  refine Finset.sum_congr rfl fun k _ => ?_
  show Ideal.div (expArr x0 x1 (ix2 r k)) (broadcastTo S512x16 _ broadcasts_S512x1_S512x16 (ix2 r k)) * x1 (ix2 k j) = _
  refine congrArg (· * x1 (ix2 k j)) (congrArg₂ Ideal.div (expArr_apply x0 x1 r k) ?_)
  refine (rowsum_bcast_apply (expArr x0 x1) reduces_S512x16_S512 shapeCasts_S512_S512x1 broadcasts_S512x1_S512x16 (.inl rfl) rfl r k).trans ?_
  exact Finset.sum_congr rfl fun k' _ => expArr_apply x0 x1 r k'

end Cert.KernelIdeal.BodyValue

end
-- ==== Proof.LibScatterSet.lean ====
/-
  A scatter whose combining function keeps the update (`x.at[...].set(u)`), read at an index.

  The scatter is a left fold over the update indices, in row-major order: each step overwrites the entry at
  the place its update index lands on. Suppose every update index `j` lands inside the operand, at `g j`, and
  `g` is injective. Then no entry is written twice, so the order of the fold does not matter: the entry at
  `g j` ends as the update at `j`, and an entry that is no `g j` keeps the operand's value.
-/
import Idealize.ShloMosaic.PureOps.ShapeOps

namespace LibScatterSet

open Idealize.ShloMosaic

variable {s si u : Shape} {α : Type} {w : Nat}

variable (d : ScatterDims s si u) (x : s.Idx → α) (idx : IVec si w) (upd : u.Idx → α)
  (g : u.Idx → s.Idx) (hg : ∀ j, d.resultIdx? j idx = some (g j))

include hg in
/-- The scatter as a fold of plain overwrites at the places `g` names. -/
private theorem scatter_eq_foldl :
    Host.scatter d (fun _ b => b) x idx upd
      = (List.finRange u.numel).foldl (fun r n => fun i' => if i' = g (u.rowMajor.symm n) then upd (u.rowMajor.symm n) else r i') x := by
  unfold Host.scatter
  refine congrArg (fun f => List.foldl f x (List.finRange u.numel)) ?_
  funext r n
  rw [hg]

include hg in
/-- An entry no update index lands on keeps the operand's value. -/
theorem scatter_set_of_not_mem (i : s.Idx) (hi : ∀ j, g j ≠ i) :
    Host.scatter d (fun _ b => b) x idx upd i = x i := by
  rw [scatter_eq_foldl d x idx upd g hg]
  generalize List.finRange u.numel = l
  induction l generalizing x with
  | nil => rfl
  | cons a t ih =>
    rw [List.foldl_cons, ih]
    exact if_neg (fun h => hi _ h.symm)

include hg in
/-- The entry update index `j` lands on ends as the update at `j`, when no two update indices land on one entry. -/
theorem scatter_set_of_mem (hinj : Function.Injective g) (j : u.Idx) :
    Host.scatter d (fun _ b => b) x idx upd (g j) = upd j := by
  rw [scatter_eq_foldl d x idx upd g hg]
  have hnd : (List.finRange u.numel).Nodup := List.nodup_finRange _
  have hmem : u.rowMajor j ∈ List.finRange u.numel := List.mem_finRange _
  have key : ∀ (l : List (Fin u.numel)), l.Nodup → ∀ (r : s.Idx → α) (n : Fin u.numel), n ∈ l →
      (l.foldl (fun r n => fun i' => if i' = g (u.rowMajor.symm n) then upd (u.rowMajor.symm n) else r i') r)
        (g (u.rowMajor.symm n)) = upd (u.rowMajor.symm n) := by
    intro l
    induction l with
    | nil => intro _ _ n hn; exact absurd hn List.not_mem_nil
    | cons a t ih =>
      intro hl r n hn
      rw [List.foldl_cons]
      have hat : a ∉ t := (List.nodup_cons.mp hl).1
      have ht : t.Nodup := (List.nodup_cons.mp hl).2
      rcases List.mem_cons.mp hn with rfl | hnt
      · have keep : ∀ (l : List (Fin u.numel)) (r : s.Idx → α), n ∉ l →
            (l.foldl (fun r n => fun i' => if i' = g (u.rowMajor.symm n) then upd (u.rowMajor.symm n) else r i') r)
              (g (u.rowMajor.symm n)) = r (g (u.rowMajor.symm n)) := by
          intro l
          induction l with
          | nil => intro _ _; rfl
          | cons b t' ih' =>
            intro r hb
            rw [List.foldl_cons, ih' _ (fun h => hb (List.mem_cons_of_mem _ h))]
            refine if_neg (fun h => hb ?_)
            have := u.rowMajor.symm.injective (hinj h)
            exact this ▸ List.mem_cons_self
        rw [keep t _ hat]
        exact if_pos rfl
      · exact ih ht _ n hnt
  have := key _ hnd x (u.rowMajor j) hmem
  rwa [Equiv.symm_apply_apply] at this

end LibScatterSet
-- ==== Proof.KernelArray.lean ====
/-
  From the blocks the grid points write back to the whole result of the kernel program.

  The program views the [16, 2048, 2048] argument as 32768 rows of 2048, pads the ten memory items to sixteen rows
  with zeros (a scatter of the items into a zero array at row 0), runs the body on 64 blocks of 512 rows — point t
  reads rows 512·t … 512·t + 511 and all sixteen items, and writes the same rows of the result —, and views the
  result as [16, 2048, 2048] again. Every row lies in exactly one block, so the result array is ONE function of the
  two arrays the region finds: at (R, j), the sixteen-item soft read of row R.
-/
import proofs.«108266_g72112500899924_cont_9to1_m_1190_2_alg».proof.Proof.Gen.KernelIdeal.Frame
import proofs.«108266_g72112500899924_cont_9to1_m_1190_2_alg».proof.Proof.BodyAtEntry
import proofs.«108266_g72112500899924_cont_9to1_m_1190_2_alg».proof.Proof.LibScatterSet
import Idealize.ShloMosaic.Lib.Pipeline.Value
import Idealize.ShloMosaic.Lib.StableHlo.Run
import Idealize.ShloMosaic.Lib.Tactic

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The padded items: a scatter of ten rows into sixteen rows of zeros, read at an entry -/

local notation "SD" => scatter_S16x2048_S1_S10x2048_01_n_0_0

/-- Where update entry (k, l) lands: row k, column l of the sixteen-row array. -/
def land (j : S10x2048.Idx) : S16x2048.Idx := ix2 (Fin.castLE (by norm_num : 10 ≤ 16) (j 0)) (j 1)

theorem land_injective : Function.Injective land := fun j j' e => by
  funext a
  match a with
  | ⟨0, _⟩ => exact Fin.ext (congrArg (fun i : S16x2048.Idx => (i 0).val) e)
  | ⟨1, _⟩ => exact Fin.ext (congrArg (fun i : S16x2048.Idx => (i 1).val) e)

theorem start_zero (idx : IVec S1 32) (hidx : ∀ i, idx i = 0#32) (j : S10x2048.Idx) (a : Fin 2) :
    (SD).start j idx a = 0 := by
  unfold ScatterDims.start
  split
  · rw [hidx]; rfl
  · rfl

theorem window_eq (j : S10x2048.Idx) (a : Fin 2) : (SD).window j a = (j a).val := by
  fin_cases a
  · show (SD).window j (0 : Fin S16x2048.rank) = (j 0).val
    unfold ScatterDims.window; rw [dif_pos (show (0 : Fin S16x2048.rank) ∈ (SD).sKept by decide)]; rfl
  · show (SD).window j (1 : Fin S16x2048.rank) = (j 1).val
    unfold ScatterDims.window; rw [dif_pos (show (1 : Fin S16x2048.rank) ∈ (SD).sKept by decide)]; rfl

/-- With the start index zero every update entry lands inside the operand, at `land`. -/
theorem landing (idx : IVec S1 32) (hidx : ∀ i, idx i = 0#32) (j : S10x2048.Idx) :
    (SD).resultIdx? j idx = some (land j) := by
  unfold ScatterDims.resultIdx?
  have h : ∀ a, 0 ≤ (SD).start j idx a + (SD).window j a ∧ (SD).start j idx a + (SD).window j a < S16x2048.size a := by
    intro a
    rw [start_zero idx hidx, window_eq]
    match a with
    | ⟨0, _⟩ => have h0 : (j 0).val < 10 := (j 0).isLt; show (0 : ℤ) ≤ 0 + ((j 0).val : ℤ) ∧ 0 + ((j 0).val : ℤ) < ((16 : ℕ) : ℤ); omega
    | ⟨1, _⟩ => have h1 : (j 1).val < 2048 := (j 1).isLt; show (0 : ℤ) ≤ 0 + ((j 1).val : ℤ) ∧ 0 + ((j 1).val : ℤ) < ((2048 : ℕ) : ℤ); omega
  rw [dif_pos h]
  refine congrArg some (funext fun a => Fin.ext ?_)
  show ((SD).start j idx a + (SD).window j a).toNat = _
  rw [start_zero idx hidx, window_eq]
  match a with
  | ⟨0, _⟩ => show (0 + ((j 0).val : ℤ)).toNat = (j 0).val; omega
  | ⟨1, _⟩ => show (0 + ((j 1).val : ℤ)).toNat = (j 1).val; omega

/-- The scatter of the items into zeros at start index zero IS the padding: rows below ten are the items, the rest zero. -/
theorem padded_apply (z : S16x2048.Idx → EReal) (hz : ∀ i, z i = 0) (idx : IVec S1 32) (hidx : ∀ i, idx i = 0#32)
    (u : S10x2048.Idx → EReal) (k : Fin 16) (l : Fin 2048) :
    Host.scatter SD (fun _ b => b) z idx u (ix2 k l) = SoftRead.pad (fun k l => u (ix2 k l)) k l := by
  unfold SoftRead.pad
  by_cases hk : k.val < 10
  · rw [dif_pos hk]
    exact LibScatterSet.scatter_set_of_mem SD z idx u land (landing idx hidx) land_injective (ix2 ⟨k.val, hk⟩ l)
  · rw [dif_neg hk, LibScatterSet.scatter_set_of_not_mem SD z idx u land (landing idx hidx) (ix2 k l) (fun j hj => hk (by
      have e : (land j 0).val = k.val := congrArg (fun i : S16x2048.Idx => (i 0).val) hj
      have e' : (land j 0).val = (j 0).val := rfl
      have h0 : (j 0).val < 10 := (j 0).isLt
      omega)), hz]

/-! ## The arrays as the region finds them -/

/-- The rows: the argument viewed as 32768 rows. -/
theorem V_rows (c : Dev nD) :
    (V m c main_v0 : S32768x2048.Idx → EReal)
      = shapeCast S32768x2048 (m ((c : Thread nD τ).loc main_arg0)) shapeCasts_S16x2048x2048_S32768x2048 := by
  show StableHlo.after hostOps0 (fun b => m (c, b)) (Proc.devRef .tc main_v0) = _
  after_results <;> rfl

/-- The items: the ten rows scattered into sixteen rows of zeros. -/
theorem V_items (c : Dev nD) :
    (V m c main_v3 : S16x2048.Idx → EReal)
      = Host.scatter SD (fun _ b => b)
          (broadcastInDim S16x2048 ![] bcast_S_S16x2048 (constant (F := Ideal) S_ .f32 0x00000000#32))
          (broadcastInDim S1 ![] bcast_S_S1 (constantI S_ 32 0#32))
          (m ((c : Thread nD τ).loc main_arg1)) := by
  show StableHlo.after hostOps0 (fun b => m (c, b)) (Proc.devRef .tc main_v3) = _
  after_results <;> rfl

theorem V_items_apply (c : Dev nD) (k : Fin 16) (l : Fin 2048) :
    (V m c main_v3 : S16x2048.Idx → EReal) (ix2 k l)
      = SoftRead.pad (fun k l => (m ((c : Thread nD τ).loc main_arg1) : S10x2048.Idx → EReal) (ix2 k l)) k l := by
  rw [V_items]
  exact padded_apply _ (fun i => Ideal.ofBits_zero_f32) _ (fun i => rfl) _ k l

/-! ## What the result array ends holding -/

theorem hz : (![0, 0] : Fin 2 → Nat) = fun _ => 0 := funext fun a => by fin_cases a <;> rfl

/-- The result as one function of the rows f and the sixteen items: at (R, j), the soft read of row R. -/
def G (f : S32768x2048.Idx → EReal) (items : S16x2048.Idx → EReal) : S32768x2048.Idx → EReal :=
  fun i => SoftRead.readK BodyValue.cK (fun l => f (ix2 (i 0) l)) (fun k l => items (ix2 k l)) (i 1)

/-- The index maps over the 64 points: the rows' block and the result's block move together along axis 0; the
    items' block and every column block stay at 0. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 63 :=
  (by decide +kernel : ∀ t : Fin grid0.N, _)

/-- Every row block is some point's. -/
theorem idx_onto : ∀ q0 : Fin 64, ∃ t : Fin cfg0.N, win0_2.index t = ![q0.val, 0] :=
  (by decide +kernel : ∀ q0 : Fin 64, ∃ t : Fin grid0.N, win0_2.index t = ![q0.val, 0])

/-- The rows' block at point t holds rows 512·t … of the rows array. -/
theorem rows_block (c : Dev nD) (t : Fin cfg0.N) (p : Fin 512) (l : Fin 2048) (k : S32768x2048.Idx)
    (hk0 : (k 0).val = win0_2.index t (0 : Fin 2) * 512 + p.val) (hk1 : (k 1).val = l.val) :
    (iblk m c 0 t : Vec Ideal S512x2048 .f32) (ix2 p l) = (V m c main_v0 : S32768x2048.Idx → EReal) k := by
  obtain ⟨e0, e1, e2, e3, e4, e5⟩ := idx_facts t
  unfold iblk
  rw [View.read_apply]
  show V m c main_v0 _ = V m c main_v0 _
  refine congrArg (V m c main_v0 : S32768x2048.Idx → EReal) (funext fun a => Fin.ext ?_)
  match a with
  | ⟨0, _⟩ => show win0_0.index t (0 : Fin 2) * 512 + 1 * p.val = (k 0).val; omega
  | ⟨1, _⟩ => show win0_0.index t (1 : Fin 2) * 2048 + 1 * l.val = (k 1).val; omega

/-- The items' block at every point is the whole items array. -/
theorem items_block (c : Dev nD) (t : Fin cfg0.N) (k : Fin 16) (l : Fin 2048) :
    (iblk m c 1 t : Vec Ideal S16x2048 .f32) (ix2 k l) = (V m c main_v3 : S16x2048.Idx → EReal) (ix2 k l) := by
  obtain ⟨e0, e1, e2, e3, e4, e5⟩ := idx_facts t
  unfold iblk
  rw [View.read_apply]
  show V m c main_v3 _ = V m c main_v3 _
  refine congrArg (V m c main_v3 : S16x2048.Idx → EReal) (funext fun a => Fin.ext ?_)
  match a with
  | ⟨0, _⟩ => show win0_1.index t (0 : Fin 2) * 16 + 1 * k.val = k.val; omega
  | ⟨1, _⟩ => show win0_1.index t (1 : Fin 2) * 2048 + 1 * l.val = l.val; omega

/-- WHAT POINT t WRITES BACK is block t of G of the arrays the region finds. -/
theorem flushed_eq (c : Dev nD) (t : Fin cfg0.N) :
    (dats m 0 c).flushed 2 t = ((cfg0.win 2).blk t).view.read (Elt Ideal) (G (V m c main_v0) (V m c main_v3)) := by
  show (cfg0.win 2).cut (grid0.coords t) ((dats m 0 c).after 2 t) = _
  rw [after0_2]
  unfold out0_2
  rw [View.canon_unit_zero hz]
  simp only [View.ld_unit_zero (S := S512x2048) hz, View.ld_unit_zero (S := S16x2048) hz]
  obtain ⟨e0, e1, e2, e3, e4, e5⟩ := idx_facts t
  funext y
  obtain ⟨p, q, rfl⟩ : ∃ (p : Fin 512) (q : Fin 2048), y = ix2 p q := ⟨y 0, y 1, eq_ix2 y⟩
  show k0_pay1 (F := Ideal) (iblk m c 0 t) (iblk m c 1 t) (ix2 p q)
    = G (V m c main_v0) (V m c main_v3) (((cfg0.win 2).blk t).view.emb (ix2 p q))
  refine (BodyValue.body_apply (iblk m c 0 t) (iblk m c 1 t) p q).trans ?_
  unfold G
  have hE0 : ((((cfg0.win 2).blk t).view.emb (ix2 p q)) 0).val = win0_2.index t (0 : Fin 2) * 512 + 1 * p.val := rfl
  have hE1 : (((cfg0.win 2).blk t).view.emb (ix2 p q)) 1 = q := Fin.ext (by
    show win0_2.index t (1 : Fin 2) * 2048 + 1 * q.val = q.val; omega)
  rw [hE1]
  refine congrArg₂ (fun a b => SoftRead.readK BodyValue.cK a b q) (funext fun l => ?_) (funext fun k => funext fun l => ?_)
  · exact rows_block m c t p l _ (by rw [hE0]; show _ = _ + p.val; omega) rfl
  · exact items_block m c t k l

/-- An index of the result array is in point t's block iff each coordinate is in the block's range. -/
theorem mem_blk (t : Fin cfg0.N) (i : S32768x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v4).slice (win0_2.rect t)).set ↔ _
  rw [View.set_slice_whole, Rect.mem_set_unit]
  exact Iff.rfl

/-- Row R is in the block of the point whose block index is R / 512. -/
theorem cover (i : S32768x2048.Idx) :
    ∃ t : Fin cfg0.N, (cfg0.win 2).flush t = true ∧ i ∈ ((cfg0.win 2).blk t).view.set := by
  have hi0 : (i 0).val < 32768 := (i 0).isLt
  have hi1 : (i 1).val < 2048 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- THE RESULT ARRAY after the region. -/
theorem final (c : Dev nD) : (dats m 0 c).arrAt 2 cfg0.N = G (V m c main_v0) (V m c main_v3) :=
  (dats m 0 c).arrAt_eq_of_cover 2 (G (V m c main_v0) (V m c main_v3)) (fun t _ => flushed_eq m c t) cover

/-! ## The program's result -/

/-- The program's result: the soft read of every row, over the rows of the argument and the padded items, viewed
    as [16, 2048, 2048]. -/
def result (x0 : S16x2048x2048.Idx → EReal) (x1 : S10x2048.Idx → EReal) : S16x2048x2048.Idx → EReal :=
  shapeCast S16x2048x2048
    (fun i : S32768x2048.Idx => SoftRead.readK BodyValue.cK
      (fun l => shapeCast S32768x2048 x0 shapeCasts_S16x2048x2048_S32768x2048 (ix2 (i 0) l))
      (SoftRead.pad fun k l => x1 (ix2 k l)) (i 1))
    shapeCasts_S32768x2048_S16x2048x2048

theorem G_eq (c : Dev nD) :
    G (V m c main_v0) (V m c main_v3)
      = fun i : S32768x2048.Idx => SoftRead.readK BodyValue.cK
          (fun l => shapeCast S32768x2048 (m ((c : Thread nD τ).loc main_arg0)) shapeCasts_S16x2048x2048_S32768x2048 (ix2 (i 0) l))
          (SoftRead.pad fun k l => (m ((c : Thread nD τ).loc main_arg1) : S10x2048.Idx → EReal) (ix2 k l)) (i 1) := by
  funext i
  unfold G
  rw [V_rows]
  refine congrArg (fun b => SoftRead.readK BodyValue.cK _ b (i 1)) (funext fun k => funext fun l => ?_)
  exact V_items_apply m c k l

/-- What the host tail leaves in @main's result: the view of the region's result array. -/
theorem tail_result (c : Dev nD) :
    Pipeline.afterTail₀ cfgs (dats m) 0 (V0 m) [hostOps1] c main_v5
      = result (m ((c : Thread nD τ).loc main_arg0)) (m ((c : Thread nD τ).loc main_arg1)) := by
  unfold Pipeline.afterTail₀
  show StableHlo.after hostOps1 _ (Proc.devRef .tc main_v5) = _
  after_results
  unfold result
  refine congrArg (fun a => shapeCast S16x2048x2048 a shapeCasts_S32768x2048_S16x2048x2048) ?_
  exact ((Pipeline.withArrays_arr spec0 launch0.win.arr_inj c _ _ 2).trans (final m c)).trans (G_eq m c)

/-- THE RUN: every weakly fair execution terminates with @main's result at `result` of the arguments, the arguments unchanged. -/
theorem run : θ_run defs (onTc (τ := τ) (main (F := Ideal))) ⟨m, fun _ => 0, ρ⟩ fun r => ∀ c : Dev nD,
      r.2.mem ((c.tc : Thread nD τ).loc main_v5) = result (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v5 (Pipeline.mem_restRefs_of main_v5 (by decide) (by decide))).trans (tail_result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.ArrayValue

end
-- ==== Proof.ReferenceAtEntry.lean ====
/-
  The reference program's result, read at an entry.

  The reference views the argument as 32768 rows f_R of 2048 numbers, divides each row and each of the ten memory
  items by max(‖·‖, d) — the norm the square root of the sum of squares —, takes the 32768 × 10 dot products, a
  softmax along the ten items (the maximum subtracted first), the weighted sums of the items, adds the rows, and views
  the result as [16, 2048, 2048]. Read one operation at a time at an entry (R, j), this is the ten-item soft read of
  row R at column j.
-/
import proofs.«108266_g72112500899924_cont_9to1_m_1190_2_alg».proof.Proof.Gen.ReferenceIdeal.Read
import proofs.«108266_g72112500899924_cont_9to1_m_1190_2_alg».proof.Proof.SoftRead
import proofs.«108266_g72112500899924_cont_9to1_m_1190_2_alg».proof.Proof.Words
import Idealize.ShloMosaic.Lib.ValueIdx
import Idealize.ShloMosaic.Lib.Pipeline.Value
import Idealize.ShloMosaic.PureOps.Ideal.Laws

noncomputable section

namespace Cert.ReferenceIdeal.EntryValue

open Cert.ReferenceIdeal Cert.ReferenceIdeal.Gen Cert.ReferenceIdeal.Read Idealize.ShloMosaic Idealize.ShloMosaic.ValueIdx

local macro "idx2" : tactic =>
  `(tactic| exact funext fun a => Fin.ext (by match a with | ⟨0, _⟩ => rfl | ⟨1, _⟩ => rfl))
local macro "idx1" : tactic =>
  `(tactic| exact funext fun a => Fin.ext (by match a with | ⟨0, _⟩ => rfl))

variable (x0 : (⟨S16x2048x2048, .f32⟩ : BufTy).Contents (Elt Ideal)) (x1 : (⟨S10x2048, .f32⟩ : BufTy).Contents (Elt Ideal))

/-- The lower bound of the norms, as the reference's literal reads. -/
abbrev dR : EReal := Ideal.ofBits .f32 0x2B8CBCCC#32

/-- Row R of the argument viewed as 32768 rows. -/
abbrev row (R : Fin 32768) : Fin 2048 → EReal := fun l => val_main_v0 (F := Ideal) x0 (ix2 R l)

/-- The ten items. -/
abbrev items : Fin 10 → Fin 2048 → EReal := fun k l => x1 (ix2 k l)

/-- The sum of squares of row R. -/
theorem rowsq (R : Fin 32768) : val_main_call0_v1 (F := Ideal) x0 (ix1 R) = ∑ l, row x0 R l * row x0 R l := by
  rw [val_main_call0_v1_apply, val_main_call0_cst_apply, Ideal.ofBits_def, Ideal.ofBits_zero_f32, zero_add]
  refine Finset.sum_congr rfl fun l _ => ?_
  have e : idx_main_call0_v1 (ix1 R) l = ix2 R l := by idx2
  rw [e]; rfl

/-- The divisor of row R: max(‖f_R‖, d), at every column. -/
theorem rowden (R : Fin 32768) (l : Fin 2048) :
    val_main_v4 (F := Ideal) x0 (ix2 R l) = max (Ideal.sqrt (∑ l', row x0 R l' * row x0 R l')) dR := by
  rw [val_main_v4_apply]
  have e : idx_main_v4 (ix2 R l) = ix2 R (0 : Fin 1) := by idx2
  rw [e, val_main_v3_apply, val_main_v1_apply, val_main_call0_v2_apply, val_main_v2_apply]
  have e2 : idx_main_call0_v2 (ix2 R (0 : Fin 1)) = ix1 R := by idx1
  rw [e2, rowsq, val_main_cst_apply]
  rfl

/-- The sum of squares of item k. -/
theorem itemsq (k : Fin 10) : val_main_call1_v1 (F := Ideal) x1 (ix1 k) = ∑ l, x1 (ix2 k l) * x1 (ix2 k l) := by
  rw [val_main_call1_v1_apply, val_main_call1_cst_apply, Ideal.ofBits_def, Ideal.ofBits_zero_f32, zero_add]
  refine Finset.sum_congr rfl fun l _ => ?_
  have e : idx_main_call1_v1 (ix1 k) l = ix2 k l := by idx2
  rw [e]; rfl

/-- The divisor of item k: max(‖M_k‖, d), at every column. -/
theorem itemden (k : Fin 10) (l : Fin 2048) :
    val_main_v9 (F := Ideal) x1 (ix2 k l) = max (Ideal.sqrt (∑ l', x1 (ix2 k l') * x1 (ix2 k l'))) dR := by
  rw [val_main_v9_apply]
  have e : idx_main_v9 (ix2 k l) = ix2 k (0 : Fin 1) := by idx2
  rw [e, val_main_v8_apply, val_main_v6_apply, val_main_call1_v2_apply, val_main_v7_apply]
  have e2 : idx_main_call1_v2 (ix2 k (0 : Fin 1)) = ix1 k := by idx1
  rw [e2, itemsq, val_main_cst_0_apply]
  rfl

/-- The similarity of row R with item k. -/
theorem sim_apply (R : Fin 32768) (k : Fin 10) :
    val_main_v12 (F := Ideal) x0 x1 (ix2 R k) = SoftRead.simR dR (row x0 R) (items x1) k := by
  rw [val_main_v12_apply]
  unfold SoftRead.simR
  refine Finset.sum_congr rfl fun l _ => ?_
  have el : lidx_main_v12 (ix2 R k) l = ix2 R l := by idx2
  have er : ridx_main_v12 (ix2 R k) l = ix2 l k := by idx2
  rw [el, er, val_main_v11_apply]
  have e3 : idx_main_v11 (ix2 l k) = ix2 k l := by idx2
  rw [e3, val_main_v5_apply, val_main_v10_apply, rowden, itemden]
  rfl

/-- The reduction witness at the literal shapes. -/
theorem reduces_items : S32768x10.Reduces [1] S32768 := by decide

/-- The maximum of row R's similarities, from −∞. -/
theorem rowmax (R : Fin 32768) :
    val_main_v15 (F := Ideal) x0 x1 (ix1 R) = max ⊥ (SoftRead.vmax (SoftRead.simR dR (row x0 R) (items x1))) := by
  rw [val_main_v15_apply, val_main_v14_apply, val_main_cst_2_apply]
  refine congrArg₂ max SoftRead.Words.ofBits_neg_inf ?_
  unfold val_main_v13
  rw [Host.reduce_eq_fold_single FloatOps.maximumf _ _ reducesTo_S32768x10_S32768_d1 reduces_items h_S_]
  unfold SoftRead.vmax
  show Finset.fold max (Ideal.ofBits .f32 0xFF800000#32) _ (Finset.univ : Finset (Fin 10)) = _
  rw [SoftRead.Words.ofBits_neg_inf]
  refine congrArg (fun g => Finset.fold max ⊥ g (Finset.univ : Finset (Fin 10))) (funext fun k => ?_)
  show val_main_v12 (F := Ideal) x0 x1 (reduces_items.lift (ix1 R) k) = _
  have e : reduces_items.lift (ix1 R) k = ix2 R k := by
    funext d
    match d with
    | ⟨0, _⟩ => exact Fin.ext rfl
    | ⟨1, _⟩ => exact Fin.ext rfl
  rw [e]
  exact sim_apply x0 x1 R k

/-- The softmax's numerator at (R, k). -/
theorem exp_apply (R : Fin 32768) (k : Fin 10) :
    val_main_v19 (F := Ideal) x0 x1 (ix2 R k) = SoftRead.expShift (SoftRead.simR dR (row x0 R) (items x1)) k := by
  rw [val_main_v19_apply, val_main_v18_apply, val_main_v17_apply]
  have e : idx_main_v17 (ix2 R k) = ix2 R (0 : Fin 1) := by idx2
  rw [e, val_main_v16_apply]
  have e2 : idx_main_v16 (ix2 R (0 : Fin 1)) = ix1 R := by idx1
  rw [e2, rowmax, sim_apply]
  rfl

/-- The softmax's denominator at (R, k). -/
theorem den_apply (R : Fin 32768) (k : Fin 10) :
    val_main_v22 (F := Ideal) x0 x1 (ix2 R k) = ∑ k', SoftRead.expShift (SoftRead.simR dR (row x0 R) (items x1)) k' := by
  rw [val_main_v22_apply]
  have e : idx_main_v22 (ix2 R k) = ix2 R (0 : Fin 1) := by idx2
  rw [e, val_main_v21_apply]
  have e2 : idx_main_v21 (ix2 R (0 : Fin 1)) = ix1 R := by idx1
  rw [e2, val_main_v20_apply, val_main_cst_3_apply, Ideal.ofBits_def, Ideal.ofBits_zero_f32, zero_add]
  refine Finset.sum_congr rfl fun k' _ => ?_
  have e3 : idx_main_v20 (ix1 R) k' = ix2 R k' := by idx2
  rw [e3, exp_apply]

/-- THE REFERENCE AT AN ENTRY, before the final view: the ten-item soft read of row R at column j. -/
theorem entry (R : Fin 32768) (j : Fin 2048) :
    val_main_v25 (F := Ideal) x0 x1 (ix2 R j) = SoftRead.readR dR (row x0 R) (items x1) j := by
  rw [val_main_v25_apply, val_main_v24_apply]
  unfold SoftRead.readR
  refine congrArg (_ + ·) (Finset.sum_congr rfl fun k _ => ?_)
  have el : lidx_main_v24 (ix2 R j) k = ix2 R k := by idx2
  have er : ridx_main_v24 (ix2 R j) k = ix2 k j := by idx2
  rw [el, er, val_main_v23_apply, exp_apply, den_apply]
  rfl

/-- The reference's result: the ten-item soft read of every row, viewed as [16, 2048, 2048]. -/
def result (x0 : S16x2048x2048.Idx → EReal) (x1 : S10x2048.Idx → EReal) : S16x2048x2048.Idx → EReal :=
  shapeCast S16x2048x2048
    (fun i : S32768x2048.Idx => SoftRead.readR dR
      (fun l => shapeCast S32768x2048 x0 shapeCasts_S16x2048x2048_S32768x2048 (ix2 (i 0) l))
      (fun k l => x1 (ix2 k l)) (i 1))
    shapeCasts_S32768x2048_S16x2048x2048

theorem value_eq : val_main_v26 (F := Ideal) x0 x1 = result x0 x1 := by
  unfold val_main_v26 result
  refine congrArg (fun a => shapeCast S16x2048x2048 a shapeCasts_S32768x2048_S16x2048x2048) (funext fun i => ?_)
  obtain ⟨R, j, rfl⟩ : ∃ (R : Fin 32768) (j : Fin 2048), i = ix2 R j := ⟨i 0, i 1, eq_ix2 i⟩
  exact entry x0 x1 R j

end Cert.ReferenceIdeal.EntryValue

end
-- ==== Proof.LibFiniteEntries.lean ====
/-
  A conjunction "every entry's absolute value is below +∞", read back at exact arithmetic.

  On the extended reals the absolute value of x is max(x, -x), and it is below +∞ exactly when x is neither infinity,
  that is, when x is (the image of) a real number: x = ↑(x.toReal). A precondition that takes the conjunction of
  |x_i| < +∞ over all entries of an array (a reduction by "and" of the one-bit comparisons into a single result, from the
  constant 1) and states that the result is 1 therefore says that the array is the image of its real parts.
  Stated for f32 arrays of any shape, the bound being any array that reads the word of +∞ (0x7F800000) everywhere.
-/
import Idealize.ShloMosaic.PureOps.Ideal
import Idealize.ShloMosaic.PureOps.Ideal.Laws
import Idealize.ShloMosaic.Lib.ReduceAll

noncomputable section

namespace LibFiniteEntries

open Idealize.ShloMosaic

/-- The word 0x7F800000 denotes +∞. -/
theorem ofBits_inf : Ideal.ofBits .f32 0x7F800000#32 = ⊤ := by
  simp [Ideal.ofBits, Ideal.ieee]

/-- An extended real whose absolute value max(x, -x) compares below +∞ is the image of its real part. -/
theorem real_of_abs_lt (x : EReal)
    (h : FloatOps.cmpf (F := Ideal) (φ := .f32) .olt (FloatOps.hostAbsf x) (Ideal.ofBits .f32 0x7F800000#32) = 1#1) :
    x = ((x.toReal : ℝ) : EReal) := by
  rw [Ideal.cmpf_def, Ideal.hostAbsf_def, Ideal.absf_def, ofBits_inf] at h
  induction x using EReal.rec with
  | bot => simp [Ideal.cmp] at h
  | top => simp [Ideal.cmp] at h
  | coe r => rfl

/-- The scalar shape has one index. -/
instance : Subsingleton (⟨0, ![]⟩ : Shape).Idx := ⟨fun a b => funext fun d => d.elim0⟩

/-- If the conjunction over ALL entries of "|x_i| < bound_i" is 1, the bound reading +∞ everywhere, then the array x is
    the image of its real parts. -/
theorem real_of_all_abs_lt {s t u : Shape} {axes : List (Fin s.rank)} [Subsingleton t.Idx] (x bound : FVec Ideal s .f32)
    (hb : ∀ i, bound i = Ideal.ofBits .f32 0x7F800000#32) (init : u.Idx → BitVec 1) (h : s.ReducesTo axes t) (hu : 0 < u.numel)
    (j : t.Idx) (e : Host.reduce IntOp.andi (cmpf .olt (Host.absf x) bound) init h hu j = 1#1) :
    x = fun i => (((x i).toReal : ℝ) : EReal) :=
  funext fun i => real_of_abs_lt (x i) (by
    have hi : FloatOps.cmpf (F := Ideal) (φ := .f32) .olt (FloatOps.hostAbsf (x i)) (bound i) = 1#1 :=
      Host.reduce_andi_all _ init h hu j e i
    rw [hb i] at hi
    exact hi)

end LibFiniteEntries

end
-- ==== Proof.lean ====
/-
  The kernel against its reference: the soft read of a ten-item memory, on the extended reals.

  Both programs update each of the 32768 rows f of the argument by the softmax-weighted sum of the memory items,
  the weights the softmax of the cosine similarities of f with the items. The reference normalises each vector by
  max(‖x‖, d), d the single-precision word nearest 10⁻¹²; the kernel multiplies by 1/√(max(‖x‖², c)), pads the ten
  items to sixteen rows with zeros and masks the six extra similarities by −∞ before the softmax. The kernel's
  constant c is named d² (the relation its source states: x / max(‖x‖, 1e-12) written as x · rsqrt(max(‖x‖², 1e-24))),
  and under it, for finite inputs, the two results are one function of the arguments:
    * the kernel's result is the sixteen-item soft read of every row (the body at an entry, block by block, every
      row in exactly one block; the host's views before and after the region);
    * the reference's result is the ten-item soft read of every row (its operations read one at a time);
    * the two soft reads agree on real entries (the algebra of the soft read);
    * finite inputs are real entries.
-/
import proofs.«108266_g72112500899924_cont_9to1_m_1190_2_alg».proof.Defs
import proofs.«108266_g72112500899924_cont_9to1_m_1190_2_alg».proof.Proof.Gen.Kernel
import proofs.«108266_g72112500899924_cont_9to1_m_1190_2_alg».proof.Proof.Gen.Kernel.Skeleton
import proofs.«108266_g72112500899924_cont_9to1_m_1190_2_alg».proof.Proof.Gen.Kernel.Launch
import proofs.«108266_g72112500899924_cont_9to1_m_1190_2_alg».proof.Proof.Gen.Kernel.Points
import proofs.«108266_g72112500899924_cont_9to1_m_1190_2_alg».proof.Proof.Gen.Kernel.Frame
import proofs.«108266_g72112500899924_cont_9to1_m_1190_2_alg».proof.Proof.Gen.KernelIdeal
import proofs.«108266_g72112500899924_cont_9to1_m_1190_2_alg».proof.Proof.Gen.KernelIdeal.Skeleton
import proofs.«108266_g72112500899924_cont_9to1_m_1190_2_alg».proof.Proof.Gen.KernelIdeal.Launch
import proofs.«108266_g72112500899924_cont_9to1_m_1190_2_alg».proof.Proof.Gen.KernelIdeal.Points
import proofs.«108266_g72112500899924_cont_9to1_m_1190_2_alg».proof.Proof.Gen.KernelIdeal.Frame
import proofs.«108266_g72112500899924_cont_9to1_m_1190_2_alg».proof.Proof.Gen.ReferenceIdeal
import proofs.«108266_g72112500899924_cont_9to1_m_1190_2_alg».proof.Proof.Gen.Pre_finite_inputs
import proofs.«108266_g72112500899924_cont_9to1_m_1190_2_alg».proof.Proof.Gen.ReferenceIdeal.Run
import proofs.«108266_g72112500899924_cont_9to1_m_1190_2_alg».proof.Proof.Gen.ReferenceIdeal.Read
import proofs.«108266_g72112500899924_cont_9to1_m_1190_2_alg».proof.Proof.KernelArray
import proofs.«108266_g72112500899924_cont_9to1_m_1190_2_alg».proof.Proof.ReferenceAtEntry
import proofs.«108266_g72112500899924_cont_9to1_m_1190_2_alg».proof.Proof.LibFiniteEntries
import Idealize.ShloMosaic.Lib.Affine
import Idealize.ShloMosaic.Adequacy
import Idealize.ShloMosaic.Init

noncomputable section

namespace Cert.Proof

open Idealize.ShloMosaic Idealize.SL.Sem Idealize.ShloMosaic.ValueIdx

/-! ## Finite inputs are arrays of real numbers -/

/-- The precondition — every entry of both arguments has absolute value below +∞ — says both arrays are the
    images of their real parts. -/
theorem real_of_pre (a0 : FVec Ideal Cert.Pre_finite_inputs.S16x2048x2048 .f32) (a1 : FVec Ideal Cert.Pre_finite_inputs.S10x2048 .f32)
    (h : Cert.Pre_finite_inputs.fn (F := Ideal) a0 a1 = fun _ => 1#1) :
    a0 = (fun i => (((a0 i).toReal : ℝ) : EReal)) ∧ a1 = fun i => (((a1 i).toReal : ℝ) : EReal) := by
  have h0 := congrFun h ix0
  unfold Cert.Pre_finite_inputs.fn at h0
  obtain ⟨h1, h2⟩ := IntOp.andi_eq_one.mp h0
  exact ⟨LibFiniteEntries.real_of_all_abs_lt a0 _ (fun _ => rfl) _ _ _ _ h1,
    LibFiniteEntries.real_of_all_abs_lt a1 _ (fun _ => rfl) _ _ _ _ h2⟩

/-! ## The two constants -/

/-- The kernel's named bound denotes d², by the certificate's table. -/
theorem bound_value : Cert.KernelIdeal.BodyValue.cK
    = ((5316911940649 / 5316911983139663491615228241121378304 : ℝ) : EReal) :=
  IdealRules.named_const.ideal_named_scalar _ _ _ _ rfl

/-! ## The two results are one function of finite arguments -/

theorem results_agree (a0 : Cert.KernelIdeal.S16x2048x2048.Idx → EReal) (a1 : Cert.KernelIdeal.S10x2048.Idx → EReal)
    (h0 : a0 = fun i => (((a0 i).toReal : ℝ) : EReal)) (h1 : a1 = fun i => (((a1 i).toReal : ℝ) : EReal)) :
    Cert.KernelIdeal.ArrayValue.result a0 a1 = Cert.ReferenceIdeal.EntryValue.result a0 a1 := by
  obtain ⟨g0, rfl⟩ : ∃ g0 : Cert.KernelIdeal.S16x2048x2048.Idx → ℝ, a0 = fun i => (g0 i : EReal) := ⟨_, h0⟩
  obtain ⟨g1, rfl⟩ : ∃ g1 : Cert.KernelIdeal.S10x2048.Idx → ℝ, a1 = fun i => (g1 i : EReal) := ⟨_, h1⟩
  unfold Cert.KernelIdeal.ArrayValue.result Cert.ReferenceIdeal.EntryValue.result
  refine congrArg (fun a => shapeCast Cert.KernelIdeal.S16x2048x2048 a Cert.KernelIdeal.Gen.shapeCasts_S32768x2048_S16x2048x2048)
    (funext fun i => ?_)
  rw [bound_value, show Cert.ReferenceIdeal.EntryValue.dR = ((SoftRead.Words.normFloor : ℝ) : EReal) from SoftRead.Words.ofBits_normFloor]
  exact SoftRead.readK_eq_readR _ _ SoftRead.Words.normFloor_pos SoftRead.Words.normFloor_sq
    (fun l => g0 (Shape.reshapeEquiv Cert.KernelIdeal.Gen.shapeCasts_S16x2048x2048_S32768x2048 (ix2 (i 0) l)))
    (fun k l => g1 (ix2 k l)) (i 1)

/-! ## The claims -/

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ledger's two entries (the bound under each of the two square roots): the table gives the name the value d². -/
theorem preserves : Cert.preserves_Kernel_KernelIdeal :=
  ⟨IdealRules.named_const.statement Cert.KernelIdeal.κ "eps_sq" .f32 0x179ABE15#32
      ((5316911940649 / 5316911983139663491615228241121378304 : ℝ) : EReal) rfl,
   IdealRules.named_const.statement Cert.KernelIdeal.κ "eps_sq" .f32 0x179ABE15#32
      ((5316911940649 / 5316911983139663491615228241121378304 : ℝ) : EReal) rfl⟩

/-- From memories agreeing on finite arguments both programs end with the soft read of every row. -/
theorem algebraic : Cert.algebraic_KernelIdeal_ReferenceIdeal := by
  intro m ρ m' ρ' hpre hagree
  refine ⟨fun c => Cert.ReferenceIdeal.EntryValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.ArrayValue.run m ρ)
    obtain ⟨h0, h1⟩ := real_of_pre _ _ (hpre c)
    exact results_agree _ _ h0 h1
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v26_eq, Cert.ReferenceIdeal.EntryValue.value_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
